-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x64 : Shape := ⟨2, ![768, 64]⟩
abbrev S64 : Shape := ⟨1, ![64]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S768x64 .f32) (main_arg6 : FVec F S64 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x2048x768 .f32) (main_arg1 : FVec F S768x64 .f32) (main_arg2 : FVec F S64 .f32) (main_arg3 : FVec F S768x64 .f32) (main_arg4 : FVec F S64 .f32) (main_arg5 : FVec F S768x64 .f32) (main_arg6 : FVec F S64 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_v13 main_v16
-- ==== Kernel.lean ====
abbrev S4x2048x768 : Shape := ⟨3, ![4, 2048, 768]⟩
abbrev S768x64 : Shape := ⟨2, ![768, 64]⟩
abbrev S64 : Shape := ⟨1, ![64]⟩
abbrev S768x192 : Shape := ⟨2, ![768, 192]⟩
abbrev S192 : Shape := ⟨1, ![192]⟩
abbrev S1x192 : Shape := ⟨2, ![1, 192]⟩
abbrev S4x2048x64 : Shape := ⟨3, ![4, 2048, 64]⟩
abbrev S1x2048x768 : Shape := ⟨3, ![1, 2048, 768]⟩
abbrev S1x512x64 : Shape := ⟨3, ![1, 512, 64]⟩
abbrev S2048x64 : Shape := ⟨2, ![2048, 64]⟩
abbrev S2048x768 : Shape := ⟨2, ![2048, 768]⟩
abbrev S2048x192 : Shape := ⟨2, ![2048, 192]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x2048x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x192, .f32⟩
  | .hbm, ⟨8, _⟩ => ⟨S768x192, .bf16⟩
  | .hbm, ⟨9, _⟩ => ⟨S192, .f32⟩
  | .hbm, ⟨10, _⟩ => ⟨S1x192, .f32⟩
  | .hbm, ⟨11, _⟩ => ⟨S4x2048x64, .f32⟩
  | .local _ .vmem, ⟨0, _⟩ => ⟨S1x2048x768, .f32⟩
  | .local _ .vmem, ⟨1, _⟩ => ⟨S1x2048x768, .f32⟩
  | .local _ .vmem, ⟨2, _⟩ => ⟨S768x192, .bf16⟩
  | .local _ .vmem, ⟨3, _⟩ => ⟨S1x192, .f32⟩
  | .local _ .vmem, ⟨4, _⟩ => ⟨S1x512x64, .f32⟩
  | .local _ .vmem, ⟨5, _⟩ => ⟨S1x512x64, .f32⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S768x64_S768x64_S768x64_S768x192_d1 : Shape.Concatenates [S768x64, S768x64, S768x64] S768x192 1
  bitsLt_bf16_f32 : FTy.bits .bf16 < FTy.bits .f32
  concatenates_S64_S64_S64_S192_d0 : Shape.Concatenates [S64, S64, S64] S192 0
  shapeCasts_S192_S1x192 : S192.ShapeCasts S1x192
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x192_S768x192_0_0 : ∀ a, (![0, 0] : Fin 2 → Nat) a + S768x192.size a ≤ S768x192.size a
  h_S768x192 : 0 < S768x192.numel
  shapeCasts_S768x192_S768x192 : S768x192.ShapeCasts S768x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2048x192 : S1x192.Broadcasts S2048x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  slices_S2048x192_o0_64_S2048x64 : S2048x192.Slices ![0, 64] S2048x64
  slices_S2048x192_o0_128_S2048x64 : S2048x192.Slices ![0, 128] S2048x64
  h_S512x64 : 0 < S512x64.numel
  reduces_S512x2048_S512 : S512x2048.Reduces [1] S512
  shapeCasts_S512_S512x1 : S512.ShapeCasts S512x1
  broadcasts_S512x1_S512x2048 : S512x1.Broadcasts S512x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x768_S768x192_S2048x192_1_0_0_1_n_n_wf : DotDims.WF S2048x768 S768x192 S2048x192 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x2048x768.size a
  hwx0_0 : ∀ i : grid0.Coords, EltTy.bits .f32 = 32 ∨ (Rect.block (s := S4x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .bf16 = 32 ∨ (Rect.block (s := S768x192) S768x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x2048x64.size a
  hwx0_3 : ∀ i : grid0.Coords, EltTy.bits .f32 = 32 ∨ (Rect.block (s := S4x2048x64) S1x512x64.size (cc0_transform_3 i) (hinb0_3 i)).WholeWords (EltTy.packing .f32)

variable [Facts₀]

def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768x64 : Shape := ⟨2, ![768, 64]⟩
abbrev S64 : Shape := ⟨1, ![64]⟩
abbrev S4x2048x64 : Shape := ⟨3, ![4, 2048, 64]⟩
abbrev S1x1x64 : Shape := ⟨3, ![1, 1, 64]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S4x2048x64, .f32⟩
  | .hbm, ⟨8, _⟩ => ⟨S1x1x64, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S1x1x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S1x1x64, .f32⟩
  | .hbm, ⟨17, _⟩ => ⟨S4x2048x64, .f32⟩
  | .hbm, ⟨18, _⟩ => ⟨S4x2048x64, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x64, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x768_S768x64_S4x2048x64_2_0_01_1_n_n_wf : DotDims.WF S4x2048x768 S768x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x768_S768x64_S4x2048x64_2_0_01_1_n_n : DotDims S4x2048x768 S768x64 S4x2048x64 where
  lhsContracting := [2]
  rhsContracting := [0]
  lhsNonContracting := [0, 1]
  rhsNonContracting := [1]
  lhsBatch := []
  rhsBatch := []
  wf := dot_S4x2048x768_S768x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KB.Kit.lean ====
/-
  The launch side of the fused attention kernel's run, shared by its two control cases: the program is four host
  operations (the three projection weights concatenated column-wise and narrowed, the three biases concatenated and
  reshaped to one row) followed by one region on a 4 x 4 grid (batch, query tile).  Here: the buffers' contents when
  the region is entered, that no host operation writes an argument, each input window's block at a grid point, that
  an input's staging buffer holds that block at every point (fetched there or carried over), the one branch of the
  body (taken exactly at the first query tile of each batch), and how a run's final arrays give the frame claim.
-/
import proofs.«125336_j15839839388316_2_alg».proof.Proof.Gen.Kernel.Launch
import proofs.«125336_j15839839388316_2_alg».proof.Proof.Gen.Kernel.Skeleton
import proofs.«125336_j15839839388316_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run ending with every array where the library
    computes it and every other unscoped buffer as found leaves the seven argument arrays as launched: the staged one
    (the activations) because an input window's array is never written, the six others because no window stages them
    and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one conditional, from the grid coordinates: the query-tile coordinate is zero. -/
abbrev cond0_0 (i : grid0.Coords) : Prop := (Scalar.cmpi .ne (Scalar.extui (Scalar.cmpi .eq (BitVec.ofNat 32 (i 1).val) 0#32)) 0#32) = 1#1
/-- It holds at the points that are multiples of four: the first query tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S1x512x64 .f32 := (Memref.whole cc0_stg3_0 : Memref sig .tc .vmem S1x512x64 .f32).view
/-- Each window's current staging memref at point `t`, and its wholeness. -/
abbrev ms0_0 (t : Fin cfg0.N) : Memref sig .tc .vmem S1x2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (queries, keys, values of the current batch): whole scoped buffers. -/
abbrev scM0_0 : Memref sig .tc .vmem S2048x64 .bf16 := Memref.whole cc0_scratch0
abbrev scM0_1 : Memref sig .tc .vmem S2048x64 .bf16 := Memref.whole cc0_scratch1
abbrev scM0_2 : Memref sig .tc .vmem S2048x64 .bf16 := Memref.whole cc0_scratch2
/-- The same as views, through which their contents are stated. -/
abbrev VS0_0 : View sig .tc .vmem S2048x64 .bf16 := scM0_0.view
abbrev VS0_1 : View sig .tc .vmem S2048x64 .bf16 := scM0_1.view
abbrev VS0_2 : View sig .tc .vmem S2048x64 .bf16 := scM0_2.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KB.RunA.lean ====
/-
  The body at the first query tile of a batch.  There the branch is taken: the batch's activations (2048 x 768) are
  multiplied by the fused projection weights (768 x 192), the bias row is added, and the three 64-column bands of the
  result are stored whole into the three scratch buffers (queries, keys, values).  Then, as at every tile, the tile's
  512 query rows are read back from the first scratch, the scores against all 2048 keys are normalised row by row and
  applied to the values, and the 512 x 64 result is stored whole into the output window's staging buffer.
  Stated as a triple on any whole memrefs: the inputs at their contents in and out, the output buffer and the three
  scratch buffers at anything in, and out at the pieces the stores wrote (found by running the body).
-/
import proofs.«125336_j15839839388316_2_alg».proof.Proof.KB.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in the output buffer and in the three scratch buffers at a first tile, with
    the proof that the body runs to a continuation holding them. -/
noncomputable def kernelRun0_A (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    Σ' (L3 : List (View.Piece (Elt F) S1x512x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KB.RunB.lean ====
/-
  The body at a later query tile of a batch.  The branch is not taken, so the three scratch buffers are only read:
  they still hold the batch's queries, keys and values as the first tile left them.  The tile's 512 query rows are
  read from the first scratch, scored against all keys, normalised row by row, applied to the values, and the
  512 x 64 result is stored whole into the output window's staging buffer.  The input windows are not touched.
  Stated as a triple on any whole memrefs: the scratch buffers at given contents in and out, the output buffer at
  anything in and at the pieces the store wrote out.
-/
import proofs.«125336_j15839839388316_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's one store leaves in the output buffer at a later tile, with the proof that the body runs
    to a continuation holding them and the scratch buffers as they were. -/
noncomputable def kernelRun0_B (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) :
    { L3 : List (View.Piece (Elt F) S1x512x64 .f32) //
      ∀ (E : Set ℕ) (K : PUnit → sProp 𝕄),
        iprop((∃ d, owns (c : Thread nD τ) arg5 fullShare d) ∗ owns (c : Thread nD τ) arg6 fullShare xs0 ∗ owns (c : Thread nD τ) arg7 fullShare xs1 ∗ owns (c : Thread nD τ) arg8 fullShare xs2
            ∗ (iprop((∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg6.eq_unread hfs0; obtain rfl := harg7.eq_unread hfs1; obtain rfl := harg8.eq_unread hfs2
    sl_exec (disch := first | exact hc0)
    sl_step
    iapply Hk
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Hand

end
-- ==== Proof.KB.Frame.lean ====
/-
  The run of the fused attention kernel over its 4 x 4 grid, and its frame.
  What each buffer holds after the body, case by case: at a first query tile the three scratch buffers end at the
  pieces that tile's stores wrote (the batch's projected queries, keys and values) and the output buffer at its one
  stored piece; at a later tile the scratch buffers are as the tile before left them and the output buffer again at
  its one stored piece, a function of those scratch contents.  From these, what the output and the scratch hold after
  each point by recursion on the point; the region's invariant (before the first point every scratch at anything,
  afterwards each at what the point before left); the proof data; the body's obligation at every point, by cases on
  whether the point is a first tile; and the launch.
-/
import proofs.«125336_j15839839388316_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first tile's one store into the output buffer covers it. -/
theorem cover0_A_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y

/-- What a first tile leaves in the output buffer: its piece read back. -/
def out0_A_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- A first tile's store into scratch 0 covers it. -/
theorem scover0_A_0 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S2048x64.size (by sl_kernel_rfl) y

/-- What a first tile leaves in scratch 0: its piece read back. -/
def sout0_A_0 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)

/-- A first tile's store into scratch 1 covers it. -/
theorem scover0_A_1 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S2048x64.size (by sl_kernel_rfl) y

/-- What a first tile leaves in scratch 1: its piece read back. -/
def sout0_A_1 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)

/-- A first tile's store into scratch 2 covers it. -/
theorem scover0_A_2 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S2048x64.size (by sl_kernel_rfl) y

/-- What a first tile leaves in scratch 2: its piece read back. -/
def sout0_A_2 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- A later tile's one store into the output buffer covers it. -/
theorem cover0_B_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) (y : S1x512x64.Idx) :
    ∃ pc ∈ (kernelRun0_B c i arg2 harg2 arg3 harg3 arg4 harg4 arg5 harg5 arg6 harg6 arg7 harg7 arg8 harg8 hc0 xs0 xs1 xs2).1, y ∈ pc.1.set :=
  View.cover_of_tiledL (kernelRun0_B c i arg2 harg2 arg3 harg3 arg4 harg4 arg5 harg5 arg6 harg6 arg7 harg7 arg8 harg8 hc0 xs0 xs1 xs2).1 S1x512x64.size (by sl_kernel_rfl) y

/-- What a later tile leaves in the output buffer: its piece read back. -/
def out0_B_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 xs0 xs1 xs2).1)

/-! ## What the buffers hold after each point -/

/-- A first tile at point `t`: the output buffer and the three scratch buffers after the body, from the point's
    input blocks. -/
def outA (c : Dev nD) (t : Fin cfg0.N) (h : t.val % 4 = 0) :
    Vec F S1x512x64 .f32 × Vec F S2048x64 .bf16 × Vec F S2048x64 .bf16 × Vec F S2048x64 .bf16 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t))

/-- A later tile at point `t`: the output buffer after the body from what the scratch buffers held, which stay. -/
def outB (c : Dev nD) (t : Fin cfg0.N) (h : ¬t.val % 4 = 0)
    (p : Vec F S1x512x64 .f32 × Vec F S2048x64 .bf16 × Vec F S2048x64 .bf16 × Vec F S2048x64 .bf16) :
    Vec F S1x512x64 .f32 × Vec F S2048x64 .bf16 × Vec F S2048x64 .bf16 × Vec F S2048x64 .bf16 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) p.2.1 p.2.2.1 p.2.2.2, p.2.1, p.2.2.1, p.2.2.2)

/-- What the output buffer and the three scratch buffers hold after the body at position `n`: a first tile
    computes all four from its input blocks, a later tile the output from the scratch the point before left. -/
def outsAt0 (c : Dev nD) : (n : ℕ) → n < cfg0.N →
    Vec F S1x512x64 .f32 × Vec F S2048x64 .bf16 × Vec F S2048x64 .bf16 × Vec F S2048x64 .bf16
  | 0, hn => outA m c ⟨0, hn⟩ (Nat.zero_mod _)
  | n + 1, hn =>
    if h0 : (n + 1) % 4 = 0 then outA m c ⟨n + 1, hn⟩ h0
    else outB c ⟨n + 1, hn⟩ h0 (outsAt0 c n (Nat.lt_of_succ_lt hn))

theorem outsAt0_A (c : Dev nD) (t : Fin cfg0.N) (h0 : t.val % 4 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = outB c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's invariant before position `n`: before the first point the scratch buffers at anything; afterwards
    each at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' memrefs hold their blocks; the point is a first tile or not; the invariant
    hands the body the scratch buffers (at anything before the first point, else at what the point before left) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · rw [outsAt0_A m c t h0]
    unfold outA out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · rw [outsAt0_B m c t h0]
    unfold outB out0_B_3; (try dsimp only)
    have hz : t.val ≠ 0 := fun e => h0 (by rw [e])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h' => h0 ((hcond0_0 t).mp h')) _ _ _).2 Set.univ _)
    isplitl [H3]; · iexists _; iexact H3
    isplitl [HS0]; · iexact HS0
    isplitl [HS1]; · iexact HS1
    isplitl [HS2]; · iexact HS2
    iintro ⟨⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the pipeline where the
    library computes it from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KI.Kit.lean ====
/-
  The launch side of the fused attention kernel's run, shared by its two control cases: the program is four host
  operations (the three projection weights concatenated column-wise and narrowed, the three biases concatenated and
  reshaped to one row) followed by one region on a 4 x 4 grid (batch, query tile).  Here: the buffers' contents when
  the region is entered, that no host operation writes an argument, each input window's block at a grid point, that
  an input's staging buffer holds that block at every point (fetched there or carried over), the one branch of the
  body (taken exactly at the first query tile of each batch), and how a run's final arrays give the frame claim.
-/
import proofs.«125336_j15839839388316_2_alg».proof.Proof.Gen.KernelIdeal.Launch
import proofs.«125336_j15839839388316_2_alg».proof.Proof.Gen.KernelIdeal.Skeleton
import proofs.«125336_j15839839388316_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run ending with every array where the library
    computes it and every other unscoped buffer as found leaves the seven argument arrays as launched: the staged one
    (the activations) because an input window's array is never written, the six others because no window stages them
    and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one conditional, from the grid coordinates: the query-tile coordinate is zero. -/
abbrev cond0_0 (i : grid0.Coords) : Prop := (Scalar.cmpi .ne (Scalar.extui (Scalar.cmpi .eq (BitVec.ofNat 32 (i 1).val) 0#32)) 0#32) = 1#1
/-- It holds at the points that are multiples of four: the first query tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S1x512x64 .f32 := (Memref.whole cc0_stg3_0 : Memref sig .tc .vmem S1x512x64 .f32).view
/-- Each window's current staging memref at point `t`, and its wholeness. -/
abbrev ms0_0 (t : Fin cfg0.N) : Memref sig .tc .vmem S1x2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (queries, keys, values of the current batch): whole scoped buffers. -/
abbrev scM0_0 : Memref sig .tc .vmem S2048x64 .bf16 := Memref.whole cc0_scratch0
abbrev scM0_1 : Memref sig .tc .vmem S2048x64 .bf16 := Memref.whole cc0_scratch1
abbrev scM0_2 : Memref sig .tc .vmem S2048x64 .bf16 := Memref.whole cc0_scratch2
/-- The same as views, through which their contents are stated. -/
abbrev VS0_0 : View sig .tc .vmem S2048x64 .bf16 := scM0_0.view
abbrev VS0_1 : View sig .tc .vmem S2048x64 .bf16 := scM0_1.view
abbrev VS0_2 : View sig .tc .vmem S2048x64 .bf16 := scM0_2.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The body at the first query tile of a batch.  There the branch is taken: the batch's activations (2048 x 768) are
  multiplied by the fused projection weights (768 x 192), the bias row is added, and the three 64-column bands of the
  result are stored whole into the three scratch buffers (queries, keys, values).  Then, as at every tile, the tile's
  512 query rows are read back from the first scratch, the scores against all 2048 keys are normalised row by row and
  applied to the values, and the 512 x 64 result is stored whole into the output window's staging buffer.
  Stated as a triple on any whole memrefs: the inputs at their contents in and out, the output buffer and the three
  scratch buffers at anything in, and out at the pieces the stores wrote (found by running the body).
-/
import proofs.«125336_j15839839388316_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in the output buffer and in the three scratch buffers at a first tile, with
    the proof that the body runs to a continuation holding them. -/
noncomputable def kernelRun0_A (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    Σ' (L3 : List (View.Piece (Elt F) S1x512x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.RunB.lean ====
/-
  The body at a later query tile of a batch.  The branch is not taken, so the three scratch buffers are only read:
  they still hold the batch's queries, keys and values as the first tile left them.  The tile's 512 query rows are
  read from the first scratch, scored against all keys, normalised row by row, applied to the values, and the
  512 x 64 result is stored whole into the output window's staging buffer.  The input windows are not touched.
  Stated as a triple on any whole memrefs: the scratch buffers at given contents in and out, the output buffer at
  anything in and at the pieces the store wrote out.
-/
import proofs.«125336_j15839839388316_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's one store leaves in the output buffer at a later tile, with the proof that the body runs
    to a continuation holding them and the scratch buffers as they were. -/
noncomputable def kernelRun0_B (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) :
    { L3 : List (View.Piece (Elt F) S1x512x64 .f32) //
      ∀ (E : Set ℕ) (K : PUnit → sProp 𝕄),
        iprop((∃ d, owns (c : Thread nD τ) arg5 fullShare d) ∗ owns (c : Thread nD τ) arg6 fullShare xs0 ∗ owns (c : Thread nD τ) arg7 fullShare xs1 ∗ owns (c : Thread nD τ) arg8 fullShare xs2
            ∗ (iprop((∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg6.eq_unread hfs0; obtain rfl := harg7.eq_unread hfs1; obtain rfl := harg8.eq_unread hfs2
    sl_exec (disch := first | exact hc0)
    sl_step
    iapply Hk
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Hand

end
-- ==== Proof.KI.Frame.lean ====
/-
  The run of the fused attention kernel over its 4 x 4 grid, and its frame.
  What each buffer holds after the body, case by case: at a first query tile the three scratch buffers end at the
  pieces that tile's stores wrote (the batch's projected queries, keys and values) and the output buffer at its one
  stored piece; at a later tile the scratch buffers are as the tile before left them and the output buffer again at
  its one stored piece, a function of those scratch contents.  From these, what the output and the scratch hold after
  each point by recursion on the point; the region's invariant (before the first point every scratch at anything,
  afterwards each at what the point before left); the proof data; the body's obligation at every point, by cases on
  whether the point is a first tile; and the launch.
-/
import proofs.«125336_j15839839388316_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first tile's one store into the output buffer covers it. -/
theorem cover0_A_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y

/-- What a first tile leaves in the output buffer: its piece read back. -/
def out0_A_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- A first tile's store into scratch 0 covers it. -/
theorem scover0_A_0 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S2048x64.size (by sl_kernel_rfl) y

/-- What a first tile leaves in scratch 0: its piece read back. -/
def sout0_A_0 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)

/-- A first tile's store into scratch 1 covers it. -/
theorem scover0_A_1 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S2048x64.size (by sl_kernel_rfl) y

/-- What a first tile leaves in scratch 1: its piece read back. -/
def sout0_A_1 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)

/-- A first tile's store into scratch 2 covers it. -/
theorem scover0_A_2 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) (y : S2048x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S2048x64.size (by sl_kernel_rfl) y

/-- What a first tile leaves in scratch 2: its piece read back. -/
def sout0_A_2 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) : Vec F S2048x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- A later tile's one store into the output buffer covers it. -/
theorem cover0_B_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) (y : S1x512x64.Idx) :
    ∃ pc ∈ (kernelRun0_B c i arg2 harg2 arg3 harg3 arg4 harg4 arg5 harg5 arg6 harg6 arg7 harg7 arg8 harg8 hc0 xs0 xs1 xs2).1, y ∈ pc.1.set :=
  View.cover_of_tiledL (kernelRun0_B c i arg2 harg2 arg3 harg3 arg4 harg4 arg5 harg5 arg6 harg6 arg7 harg7 arg8 harg8 hc0 xs0 xs1 xs2).1 S1x512x64.size (by sl_kernel_rfl) y

/-- What a later tile leaves in the output buffer: its piece read back. -/
def out0_B_3 (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 xs0 xs1 xs2).1)

/-! ## What the buffers hold after each point -/

/-- A first tile at point `t`: the output buffer and the three scratch buffers after the body, from the point's
    input blocks. -/
def outA (c : Dev nD) (t : Fin cfg0.N) (h : t.val % 4 = 0) :
    Vec F S1x512x64 .f32 × Vec F S2048x64 .bf16 × Vec F S2048x64 .bf16 × Vec F S2048x64 .bf16 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t))

/-- A later tile at point `t`: the output buffer after the body from what the scratch buffers held, which stay. -/
def outB (c : Dev nD) (t : Fin cfg0.N) (h : ¬t.val % 4 = 0)
    (p : Vec F S1x512x64 .f32 × Vec F S2048x64 .bf16 × Vec F S2048x64 .bf16 × Vec F S2048x64 .bf16) :
    Vec F S1x512x64 .f32 × Vec F S2048x64 .bf16 × Vec F S2048x64 .bf16 × Vec F S2048x64 .bf16 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) p.2.1 p.2.2.1 p.2.2.2, p.2.1, p.2.2.1, p.2.2.2)

/-- What the output buffer and the three scratch buffers hold after the body at position `n`: a first tile
    computes all four from its input blocks, a later tile the output from the scratch the point before left. -/
def outsAt0 (c : Dev nD) : (n : ℕ) → n < cfg0.N →
    Vec F S1x512x64 .f32 × Vec F S2048x64 .bf16 × Vec F S2048x64 .bf16 × Vec F S2048x64 .bf16
  | 0, hn => outA m c ⟨0, hn⟩ (Nat.zero_mod _)
  | n + 1, hn =>
    if h0 : (n + 1) % 4 = 0 then outA m c ⟨n + 1, hn⟩ h0
    else outB c ⟨n + 1, hn⟩ h0 (outsAt0 c n (Nat.lt_of_succ_lt hn))

theorem outsAt0_A (c : Dev nD) (t : Fin cfg0.N) (h0 : t.val % 4 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = outB c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's invariant before position `n`: before the first point the scratch buffers at anything; afterwards
    each at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' memrefs hold their blocks; the point is a first tile or not; the invariant
    hands the body the scratch buffers (at anything before the first point, else at what the point before left) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · rw [outsAt0_A m c t h0]
    unfold outA out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · rw [outsAt0_B m c t h0]
    unfold outB out0_B_3; (try dsimp only)
    have hz : t.val ≠ 0 := fun e => h0 (by rw [e])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h' => h0 ((hcond0_0 t).mp h')) _ _ _).2 Set.univ _)
    isplitl [H3]; · iexists _; iexact H3
    isplitl [HS0]; · iexact HS0
    isplitl [HS1]; · iexact HS1
    isplitl [HS2]; · iexact HS2
    iintro ⟨⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the pipeline where the
    library computes it from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KI.Pieces.lean ====
/-
  What the found pieces are.  The run of the body finds, for each buffer it stores into, the list of pieces written;
  here each is identified with the body's arithmetic over the values it loaded.  At a first query tile the three
  scratch buffers end holding the three 64-column bands of the fused projection of the tile's input blocks, and the
  output buffer the attention of the tile's 512 query rows, read back from the first scratch at the tile's row offset,
  against the other two.  At a later tile the output buffer holds the same function of the scratch contents it found.
-/
import proofs.«125336_j15839839388316_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's query rows: 512 rows of a 2048 x 64 array starting at the tile's row offset. -/
abbrev qtile (i : grid0.Coords) (q : Vec F S2048x64 .bf16) : Vec F S512x64 .bf16 :=
  View.ld q (Rect.unit (s := S2048x64) (k0_off1 i) S512x64.size (k0_off1_inb i))

/-- A first tile leaves band 0 of the fused projection in scratch 0. -/
theorem sout0_A_0_eq (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    sout0_A_0 c i arg2 harg2 arg3 harg3 arg4 harg4 arg5 harg5 arg6 harg6 arg7 harg7 arg8 harg8 hc0 x0 x1 x2 = k0_pay2 x0 x1 x2 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, View.ld_unit_zero (S := S1x2048x768) hz3, View.ld_unit_zero (S := S768x192) hz2, View.ld_unit_zero (S := S1x192) hz2]

/-- A first tile leaves band 1 of the fused projection in scratch 1. -/
theorem sout0_A_1_eq (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    sout0_A_1 c i arg2 harg2 arg3 harg3 arg4 harg4 arg5 harg5 arg6 harg6 arg7 harg7 arg8 harg8 hc0 x0 x1 x2 = k0_pay3 x0 x1 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, View.ld_unit_zero (S := S1x2048x768) hz3, View.ld_unit_zero (S := S768x192) hz2, View.ld_unit_zero (S := S1x192) hz2]

/-- A first tile leaves band 2 of the fused projection in scratch 2. -/
theorem sout0_A_2_eq (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    sout0_A_2 c i arg2 harg2 arg3 harg3 arg4 harg4 arg5 harg5 arg6 harg6 arg7 harg7 arg8 harg8 hc0 x0 x1 x2 = k0_pay4 x0 x1 x2 := by
  unfold sout0_A_2
  rw [View.read_writes_eq_canon _ _ _ (scover0_A_2 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, View.ld_unit_zero (S := S1x2048x768) hz3, View.ld_unit_zero (S := S768x192) hz2, View.ld_unit_zero (S := S1x192) hz2]

/-- A first tile leaves in the output buffer the attention of its query rows, read back from what it just stored. -/
theorem out0_A_3_eq (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x2048x768 .f32) (x1 : Vec F S768x192 .bf16) (x2 : Vec F S1x192 .f32) :
    out0_A_3 c i arg2 harg2 arg3 harg3 arg4 harg4 arg5 harg5 arg6 harg6 arg7 harg7 arg8 harg8 hc0 x0 x1 x2 = k0_pay5 (qtile i (k0_pay2 x0 x1 x2)) (k0_pay3 x0 x1 x2) (k0_pay4 x0 x1 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_writes_junk_eq_canon, View.readCov_unit_zero (S := S2048x64) _ hz2, View.canon_unit_zero (S := S2048x64) hz2]
  simp only [View.readAt_eq_ld, harg2.read_unread, harg3.read_unread, harg4.read_unread, View.ld_unit_zero (S := S1x2048x768) hz3, View.ld_unit_zero (S := S768x192) hz2, View.ld_unit_zero (S := S1x192) hz2]
  rfl

/-- A later tile leaves in the output buffer the attention of its query rows, from the scratch contents it found. -/
theorem out0_B_3_eq (c : Dev nD) (i : grid0.Coords) (arg2 : Memref sig .tc .vmem S1x2048x768 .f32) (harg2 : arg2.IsWhole) (arg3 : Memref sig .tc .vmem S768x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (xs0 : Vec F S2048x64 .bf16) (xs1 : Vec F S2048x64 .bf16) (xs2 : Vec F S2048x64 .bf16) :
    out0_B_3 c i arg2 harg2 arg3 harg3 arg4 harg4 arg5 harg5 arg6 harg6 arg7 harg7 arg8 harg8 hc0 xs0 xs1 xs2 = k0_pay5 (qtile i xs0) xs1 xs2 := by
  unfold out0_B_3
  rw [View.read_writes_eq_canon _ _ _ (cover0_B_3 c i arg2 harg2 arg3 harg3 arg4 harg4 arg5 harg5 arg6 harg6 arg7 harg7 arg8 harg8 hc0 xs0 xs1 xs2)]
  unfold kernelRun0_B
  dsimp only
  rw [View.canon_unit_zero hz3]
  simp only [View.readAt_eq_ld, harg6.read_unread, harg7.read_unread, harg8.read_unread, View.ld_unit_zero (S := S2048x64) hz2]

end Cert.KernelIdeal.Hand

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.AttnSpec.lean ====
/-
  Single-head self-attention over the extended reals, index by index, in its two arrangements.

  For activations x (4 batches of 2048 rows of 768 features), projection weights Wq, Wk, Wv (768 x 64) and biases
  bq, bk, bv (64): the projections Q, K, V of batch n are x[n] · W + b; the score of query row r against key row k is
  the inner product of Q[n, r] and K[n, k]; each row of scores is shifted by its supremum and exponentiated, and the
  exponentials are normalised by their sum before being applied to V.  One arrangement multiplies each exponential by
  the reciprocal 1 / l of the row's sum l; the other divides it by l.  On the extended reals the two agree exactly when
  l is not zero, and l is a positive real as soon as the row's scores are real numbers: the supremum of finitely many
  reals is one of them, so every shifted score is a real, every exponential is a positive real, and so is their sum.
  Scores are real when the inputs are, because sums and products of reals are reals.
-/
import Idealize.ShloMosaic.PureOps.Ideal
import Idealize.ShloMosaic.Lib.ValueIdx
import proofs.«125336_j15839839388316_2_alg».proof.Proof.LibERealFinite

noncomputable section

open scoped BigOperators

namespace Cert.AttnSpec

open Idealize.ShloMosaic Idealize.ShloMosaic.ValueIdx

/-- An extended real that is a real number. -/
def IsReal (x : EReal) : Prop := ∃ v : ℝ, x = (v : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} [Fintype ι] {f : ι → EReal} (hf : ∀ i, IsReal (f i)) : IsReal (∑ i, f i) := by
  choose g hg using hf
  exact ⟨∑ i, g i, by rw [Cert.LibERealFinite.coe_sum]; exact Finset.sum_congr rfl fun i _ => hg i⟩

/-! ## The pieces -/

/-- One projection: row `r` of batch `n` of the activations against column `d` of the weights, plus the bias. -/
def proj (x : (⟨3, ![4, 2048, 768]⟩ : Shape).Idx → EReal) (W : (⟨2, ![768, 64]⟩ : Shape).Idx → EReal)
    (b : (⟨1, ![64]⟩ : Shape).Idx → EReal) (n : Fin 4) (r : Fin 2048) (d : Fin 64) : EReal :=
  (∑ e : Fin 768, x (ix3 n r e) * W (ix2 e d)) + b (ix1 d)

/-- The score of a query row against a key row: their inner product over the 64 projected features. -/
def score (q k : Fin 64 → EReal) : EReal := ∑ d : Fin 64, q d * k d

/-- A row of scores shifted by its supremum and exponentiated. -/
def expo (s : Fin 2048 → EReal) (k : Fin 2048) : EReal := Ideal.exp (s k - ⨆ j, s j)

/-- The sum of a row's exponentials. -/
def denom (s : Fin 2048 → EReal) : EReal := ∑ k, expo s k

/-- The weighted sum of values with each exponential MULTIPLIED by the reciprocal of the row's sum. -/
def attnMul (s v : Fin 2048 → EReal) : EReal := ∑ k, (expo s k * Ideal.div 1 (denom s)) * v k

/-- The weighted sum of values with each exponential DIVIDED by the row's sum. -/
def attnDiv (s v : Fin 2048 → EReal) : EReal := ∑ k, Ideal.div (expo s k) (denom s) * v k

/-! ## The law -/

/-- The sum of a row's exponentials is not zero when the scores are real: it is a positive real. -/
theorem denom_ne_zero (s : Fin 2048 → EReal) (hs : ∀ k, IsReal (s k)) : denom s ≠ 0 := by
  choose sr hsr using hs
  obtain ⟨k0, hk0⟩ := exists_eq_ciSup_of_finite (f := s)
  have he : ∀ k, expo s k = ((Real.exp (sr k - sr k0) : ℝ) : EReal) := fun k => by
    unfold expo
    rw [← hk0, hsr k, hsr k0, ← EReal.coe_sub]
    rfl
  unfold denom
  rw [Finset.sum_congr rfl fun k _ => he k, ← Cert.LibERealFinite.coe_sum]
  have hpos : 0 < ∑ k : Fin 2048, Real.exp (sr k - sr k0) :=
    Finset.sum_pos (fun k _ => Real.exp_pos _) ⟨⟨0, by norm_num⟩, Finset.mem_univ _⟩
  exact_mod_cast ne_of_gt hpos

/-- Dividing by a nonzero extended real is multiplying by its reciprocal. -/
theorem mul_one_div (x l : EReal) (hl : l ≠ 0) : x * Ideal.div 1 l = Ideal.div x l := by
  unfold Ideal.div
  rw [if_neg hl, if_neg hl, one_mul]

/-- The two arrangements of the normalisation agree on a row of real scores. -/
theorem attnMul_eq_attnDiv (s v : Fin 2048 → EReal) (hs : ∀ k, IsReal (s k)) : attnMul s v = attnDiv s v := by
  unfold attnMul attnDiv
  refine Finset.sum_congr rfl fun k _ => ?_
  rw [mul_one_div _ _ (denom_ne_zero s hs)]

/-! ## Real inputs give real scores -/

theorem proj_real {x : (⟨3, ![4, 2048, 768]⟩ : Shape).Idx → EReal} {W : (⟨2, ![768, 64]⟩ : Shape).Idx → EReal}
    {b : (⟨1, ![64]⟩ : Shape).Idx → EReal} (hx : ∀ i, IsReal (x i)) (hW : ∀ i, IsReal (W i)) (hb : ∀ i, IsReal (b i))
    (n : Fin 4) (r : Fin 2048) (d : Fin 64) : IsReal (proj x W b n r d) :=
  (IsReal.sum fun e => (hx _).mul (hW _)).add (hb _)

theorem score_real {q k : Fin 64 → EReal} (hq : ∀ d, IsReal (q d)) (hk : ∀ d, IsReal (k d)) : IsReal (score q k) :=
  IsReal.sum fun d => (hq d).mul (hk d)

/-! ## The result, whole -/

/-- The attention output at batch `n`, row `r`, feature `d`, normalised by the reciprocal. -/
def outMul (x : (⟨3, ![4, 2048, 768]⟩ : Shape).Idx → EReal)
    (Wq : (⟨2, ![768, 64]⟩ : Shape).Idx → EReal) (bq : (⟨1, ![64]⟩ : Shape).Idx → EReal)
    (Wk : (⟨2, ![768, 64]⟩ : Shape).Idx → EReal) (bk : (⟨1, ![64]⟩ : Shape).Idx → EReal)
    (Wv : (⟨2, ![768, 64]⟩ : Shape).Idx → EReal) (bv : (⟨1, ![64]⟩ : Shape).Idx → EReal)
    (n : Fin 4) (r : Fin 2048) (d : Fin 64) : EReal :=
  attnMul (fun k => score (proj x Wq bq n r) (proj x Wk bk n k)) (fun k => proj x Wv bv n k d)

/-- The same normalised by division. -/
def outDiv (x : (⟨3, ![4, 2048, 768]⟩ : Shape).Idx → EReal)
    (Wq : (⟨2, ![768, 64]⟩ : Shape).Idx → EReal) (bq : (⟨1, ![64]⟩ : Shape).Idx → EReal)
    (Wk : (⟨2, ![768, 64]⟩ : Shape).Idx → EReal) (bk : (⟨1, ![64]⟩ : Shape).Idx → EReal)
    (Wv : (⟨2, ![768, 64]⟩ : Shape).Idx → EReal) (bv : (⟨1, ![64]⟩ : Shape).Idx → EReal)
    (n : Fin 4) (r : Fin 2048) (d : Fin 64) : EReal :=
  attnDiv (fun k => score (proj x Wq bq n r) (proj x Wk bk n k)) (fun k => proj x Wv bv n k d)

/-- On real inputs the two are one function. -/
theorem outMul_eq_outDiv {x : (⟨3, ![4, 2048, 768]⟩ : Shape).Idx → EReal}
    {Wq : (⟨2, ![768, 64]⟩ : Shape).Idx → EReal} {bq : (⟨1, ![64]⟩ : Shape).Idx → EReal}
    {Wk : (⟨2, ![768, 64]⟩ : Shape).Idx → EReal} {bk : (⟨1, ![64]⟩ : Shape).Idx → EReal}
    {Wv : (⟨2, ![768, 64]⟩ : Shape).Idx → EReal} {bv : (⟨1, ![64]⟩ : Shape).Idx → EReal}
    (hx : ∀ i, IsReal (x i)) (hWq : ∀ i, IsReal (Wq i)) (hbq : ∀ i, IsReal (bq i))
    (hWk : ∀ i, IsReal (Wk i)) (hbk : ∀ i, IsReal (bk i)) (n : Fin 4) (r : Fin 2048) (d : Fin 64) :
    outMul x Wq bq Wk bk Wv bv n r d = outDiv x Wq bq Wk bk Wv bv n r d :=
  attnMul_eq_attnDiv _ _ fun k => score_real (proj_real hx hWq hbq n r) (proj_real hx hWk hbk n k)

end Cert.AttnSpec

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KPayload.lean ====
/-
  The kernel body's arithmetic read at an index, at the exact values.

  The first payload is the fused projection: row r of the batch's activations against column j of the 768 x 192 weight
  block, plus entry j of the bias row.  The three scratch payloads are its three 64-column bands.  The output payload,
  from a tile of 512 query rows q, all 2048 key rows k and value rows v: the scores q · kᵀ, each row shifted by its
  maximum (a supremum) and exponentiated, each exponential multiplied by the reciprocal of its row's sum, and the
  weights applied to v — the specification's reciprocal form of the attention of those rows.
-/
import proofs.«125336_j15839839388316_2_alg».proof.Proof.Gen.KernelIdeal.Skeleton
import proofs.«125336_j15839839388316_2_alg».proof.Proof.AttnSpec
import proofs.«125336_j15839839388316_2_alg».proof.Proof.LibMaxReduce
import proofs.«125336_j15839839388316_2_alg».proof.Proof.LibColumnBroadcast
import proofs.«125336_j15839839388316_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Cert.AttnSpec
open Idealize.ShloMosaic Idealize.ShloMosaic.ValueIdx

/-! ## The three matrix products -/

theorem dotXW_l0 (i : S2048x192.Idx) (q : dot_S2048x768_S768x192_S2048x192_1_0_0_1_n_n.contr.Idx) :
    (dot_S2048x768_S768x192_S2048x192_1_0_0_1_n_n.lhsIdx i q 0).val = (i 0).val := by
  unfold DotDims.lhsIdx
  rw [dif_neg (show ¬(0 : Fin S2048x768.rank) ∈ dot_S2048x768_S768x192_S2048x192_1_0_0_1_n_n.lhsBatch by decide), dif_pos (show (0 : Fin S2048x768.rank) ∈ dot_S2048x768_S768x192_S2048x192_1_0_0_1_n_n.lhsNonContracting by decide)]
  rfl
theorem dotXW_l1 (i : S2048x192.Idx) (q : dot_S2048x768_S768x192_S2048x192_1_0_0_1_n_n.contr.Idx) :
    (dot_S2048x768_S768x192_S2048x192_1_0_0_1_n_n.lhsIdx i q 1).val = (q ⟨0, by decide⟩).val :=
  dot_S2048x768_S768x192_S2048x192_1_0_0_1_n_n.lhsIdx_val_of_single rfl i q
theorem dotXW_r0 (i : S2048x192.Idx) (q : dot_S2048x768_S768x192_S2048x192_1_0_0_1_n_n.contr.Idx) :
    (dot_S2048x768_S768x192_S2048x192_1_0_0_1_n_n.rhsIdx i q 0).val = (q ⟨0, by decide⟩).val :=
  dot_S2048x768_S768x192_S2048x192_1_0_0_1_n_n.rhsIdx_val_of_single rfl i q
theorem dotXW_r1 (i : S2048x192.Idx) (q : dot_S2048x768_S768x192_S2048x192_1_0_0_1_n_n.contr.Idx) :
    (dot_S2048x768_S768x192_S2048x192_1_0_0_1_n_n.rhsIdx i q 1).val = (i 1).val := by
  unfold DotDims.rhsIdx
  rw [dif_neg (show ¬(1 : Fin S768x192.rank) ∈ dot_S2048x768_S768x192_S2048x192_1_0_0_1_n_n.rhsBatch by decide), dif_pos (show (1 : Fin S768x192.rank) ∈ dot_S2048x768_S768x192_S2048x192_1_0_0_1_n_n.rhsNonContracting by decide)]
  rfl

/-- The product into the zero accumulator, read at an entry: a sum over the contracted coordinate. -/
theorem dotXW_apply (A : FVec Ideal S2048x768 .bf16) (B : FVec Ideal S768x192 .bf16) (r : Fin 2048) (c : Fin 192) :
    matmul dot_S2048x768_S768x192_S2048x192_1_0_0_1_n_n none A B (constant S2048x192 .f32 0x00000000#32) (ix2 r c)
      = ∑ e : Fin 768, A (ix2 r e) * B (ix2 e c) := by
  show FloatOps.matmul dot_S2048x768_S768x192_S2048x192_1_0_0_1_n_n none A B (constant S2048x192 .f32 0x00000000#32) (ix2 r c) = _
  rw [Ideal.matmul_constant_zero_apply, ← Equiv.sum_comp (contrEquiv1 dot_S2048x768_S768x192_S2048x192_1_0_0_1_n_n 768 rfl rfl).symm]
  refine Finset.sum_congr rfl fun e _ => ?_
  have hk := contrEquiv1_symm_val dot_S2048x768_S768x192_S2048x192_1_0_0_1_n_n 768 rfl rfl e
  have el : dot_S2048x768_S768x192_S2048x192_1_0_0_1_n_n.lhsIdx (ix2 r c) ((contrEquiv1 dot_S2048x768_S768x192_S2048x192_1_0_0_1_n_n 768 rfl rfl).symm e) = ix2 r e := funext fun a => Fin.ext (by
    match a with
    | ⟨0, _⟩ => exact dotXW_l0 _ _
    | ⟨1, _⟩ => exact (dotXW_l1 _ _).trans hk)
  have er : dot_S2048x768_S768x192_S2048x192_1_0_0_1_n_n.rhsIdx (ix2 r c) ((contrEquiv1 dot_S2048x768_S768x192_S2048x192_1_0_0_1_n_n 768 rfl rfl).symm e) = ix2 e c := funext fun a => Fin.ext (by
    match a with
    | ⟨0, _⟩ => exact (dotXW_r0 _ _).trans hk
    | ⟨1, _⟩ => exact dotXW_r1 _ _)
  rw [el, er]

theorem dotQK_l0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dotQK_l1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem dotQK_r0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dotQK_r1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product into the zero accumulator, read at an entry: a sum over the contracted coordinate. -/
theorem dotQK_apply (A : FVec Ideal S512x64 .bf16) (B : FVec Ideal S2048x64 .bf16) (r : Fin 512) (c : Fin 2048) :
    matmul dot_S512x64_S2048x64_S512x2048_1_1_0_0_n_n none A B (constant S512x2048 .f32 0x00000000#32) (ix2 r c)
      = ∑ e : Fin 64, A (ix2 r e) * B (ix2 c e) := by
  show FloatOps.matmul dot_S512x64_S2048x64_S512x2048_1_1_0_0_n_n none A B (constant S512x2048 .f32 0x00000000#32) (ix2 r c) = _
  rw [Ideal.matmul_constant_zero_apply, ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 r c) ((contrEquiv1 dot_S512x64_S2048x64_S512x2048_1_1_0_0_n_n 64 rfl rfl).symm e) = ix2 r e := funext fun a => Fin.ext (by
    match a with
    | ⟨0, _⟩ => exact dotQK_l0 _ _
    | ⟨1, _⟩ => exact (dotQK_l1 _ _).trans hk)
  have er : dot_S512x64_S2048x64_S512x2048_1_1_0_0_n_n.rhsIdx (ix2 r c) ((contrEquiv1 dot_S512x64_S2048x64_S512x2048_1_1_0_0_n_n 64 rfl rfl).symm e) = ix2 c e := funext fun a => Fin.ext (by
    match a with
    | ⟨0, _⟩ => exact dotQK_r0 _ _
    | ⟨1, _⟩ => exact (dotQK_r1 _ _).trans hk)
  rw [el, er]

theorem dotPV_l0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dotPV_l1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem dotPV_r0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem dotPV_r1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product into the zero accumulator, read at an entry: a sum over the contracted coordinate. -/
theorem dotPV_apply (A : FVec Ideal S512x2048 .bf16) (B : FVec Ideal S2048x64 .bf16) (r : Fin 512) (c : Fin 64) :
    matmul dot_S512x2048_S2048x64_S512x64_1_0_0_1_n_n none A B (constant S512x64 .f32 0x00000000#32) (ix2 r c)
      = ∑ e : Fin 2048, A (ix2 r e) * B (ix2 e c) := by
  show FloatOps.matmul dot_S512x2048_S2048x64_S512x64_1_0_0_1_n_n none A B (constant S512x64 .f32 0x00000000#32) (ix2 r c) = _
  rw [Ideal.matmul_constant_zero_apply, ← Equiv.sum_comp (contrEquiv1 dot_S512x2048_S2048x64_S512x64_1_0_0_1_n_n 2048 rfl rfl).symm]
  refine Finset.sum_congr rfl fun e _ => ?_
  have hk := contrEquiv1_symm_val dot_S512x2048_S2048x64_S512x64_1_0_0_1_n_n 2048 rfl rfl e
  have el : dot_S512x2048_S2048x64_S512x64_1_0_0_1_n_n.lhsIdx (ix2 r c) ((contrEquiv1 dot_S512x2048_S2048x64_S512x64_1_0_0_1_n_n 2048 rfl rfl).symm e) = ix2 r e := funext fun a => Fin.ext (by
    match a with
    | ⟨0, _⟩ => exact dotPV_l0 _ _
    | ⟨1, _⟩ => exact (dotPV_l1 _ _).trans hk)
  have er : dot_S512x2048_S2048x64_S512x64_1_0_0_1_n_n.rhsIdx (ix2 r c) ((contrEquiv1 dot_S512x2048_S2048x64_S512x64_1_0_0_1_n_n 2048 rfl rfl).symm e) = ix2 e c := funext fun a => Fin.ext (by
    match a with
    | ⟨0, _⟩ => exact (dotPV_r0 _ _).trans hk
    | ⟨1, _⟩ => exact dotPV_r1 _ _)
  rw [el, er]

/-! ## Row reductions of a 512 x 2048 block -/

/-- The index over row `r` with coordinate `k` inserted on the reduced axis. -/
theorem lift_row (h : S512x2048.Reduces [1] S512) (r : Fin 512) (k : Fin 2048) :
    h.lift (ix1 r) k = ix2 r k :=
  funext fun a => Fin.ext (by match a with | ⟨0, _⟩ => rfl | ⟨1, _⟩ => rfl)

/-- The row maximum, kept as a column and broadcast back over the row: the row's supremum at every column. -/
theorem rowmax_bcast (S : FVec Ideal S512x2048 .f32) (r : Fin 512) (k : Fin 2048) :
    (broadcastTo S512x2048 (shapeCast S512x1 (multiReduction .maximumf [1] S512 S 0xFF800000#32 reduces_S512x2048_S512 (.inl rfl) rfl) shapeCasts_S512_S512x1) broadcasts_S512x1_S512x2048) (ix2 r k) = ⨆ j : Fin 2048, S (ix2 r j) :=
  (Cert.LibColumnBroadcast.broadcastTo_a1_ab_apply _ _ r k).trans <|
  (Cert.LibColumnCast.shapeCast_a_a1_apply _ _ r 0).trans <|
  (Cert.LibMaxReduce.multiReduction_maximumf_sup S reduces_S512x2048_S512 (.inl rfl) rfl (ix1 r)).trans <|
  iSup_congr fun j => congrArg S (lift_row _ r j)

/-- The row sum, kept as a column: the sum of the row. -/
theorem rowsum_cast (E : FVec Ideal S512x2048 .f32) (r : Fin 512) (u : Fin 1) :
    shapeCast S512x1 (multiReduction .add [1] S512 E 0x00000000#32 reduces_S512x2048_S512 (.inl rfl) rfl) shapeCasts_S512_S512x1 (ix2 r u)
      = ∑ j : Fin 2048, E (ix2 r j) :=
  (Cert.LibColumnCast.shapeCast_a_a1_apply _ _ r u).trans <|
  (Ideal.multiReduction_add_single E 0x00000000#32 reduces_S512x2048_S512 (.inl rfl) rfl (ix1 r)).trans <|
  Finset.sum_congr rfl fun j _ => congrArg E (lift_row _ r j)

/-- The f32 pattern of one is the real number one. -/
theorem one_eq : Ideal.ofBits .f32 0x3F800000#32 = (1 : EReal) := by
  simp [Ideal.ofBits, Ideal.ieee, -EReal.coe_mul]; norm_num

/-! ## The normalised weights of a block of scores -/

/-- A row's exponentials: the scores shifted by the row's supremum and exponentiated. -/
theorem exps_apply (S : FVec Ideal S512x2048 .f32) (r : Fin 512) (k : Fin 2048) :
    (exp (subf S (broadcastTo S512x2048 (shapeCast S512x1 (multiReduction .maximumf [1] S512 S 0xFF800000#32 reduces_S512x2048_S512 (.inl rfl) rfl) shapeCasts_S512_S512x1) broadcasts_S512x1_S512x2048))) (ix2 r k) = expo (fun j => S (ix2 r j)) k :=
  congrArg (fun z => Ideal.exp (S (ix2 r k) - z)) (rowmax_bcast S r k)

/-- The weight at (r, k): the exponential times the reciprocal of its row's sum. -/
theorem weight_apply (S : FVec Ideal S512x2048 .f32) (r : Fin 512) (k : Fin 2048) :
    (truncf .bf16 (mulf (exp (subf S (broadcastTo S512x2048 (shapeCast S512x1 (multiReduction .maximumf [1] S512 S 0xFF800000#32 reduces_S512x2048_S512 (.inl rfl) rfl) shapeCasts_S512_S512x1) broadcasts_S512x1_S512x2048))) (broadcastTo S512x2048 (divf (broadcast S512x1 (FloatOps.ofBits .f32 0x3F800000#32)) (shapeCast S512x1 (multiReduction .add [1] S512 (exp (subf S (broadcastTo S512x2048 (shapeCast S512x1 (multiReduction .maximumf [1] S512 S 0xFF800000#32 reduces_S512x2048_S512 (.inl rfl) rfl) shapeCasts_S512_S512x1) broadcasts_S512x1_S512x2048))) 0x00000000#32 reduces_S512x2048_S512 (.inl rfl) rfl) shapeCasts_S512_S512x1)) broadcasts_S512x1_S512x2048)) bitsLt_bf16_f32) (ix2 r k)
      = expo (fun j => S (ix2 r j)) k * Ideal.div 1 (denom (fun j => S (ix2 r j))) := by
  refine congrArg₂ (· * ·) (exps_apply S r k) ?_
  refine (Cert.LibColumnBroadcast.broadcastTo_a1_ab_apply _ _ r k).trans ?_
  refine congrArg₂ Ideal.div one_eq ?_
  exact (rowsum_cast _ r 0).trans (Finset.sum_congr rfl fun j _ => exps_apply S r j)

/-! ## The payloads -/

/-- The fused projection at (r, j). -/
theorem pay1_apply (v26 : FVec Ideal S1x2048x768 .f32) (v29 : FVec Ideal S768x192 .bf16) (v32 : FVec Ideal S1x192 .f32)
    (r : Fin 2048) (j : Fin 192) :
    k0_pay1 (F := Ideal) v26 v29 v32 (ix2 r j)
      = (∑ e : Fin 768, v26 (ix3 (0 : Fin 1) r e) * v29 (ix2 e j)) + v32 (ix2 (0 : Fin 1) j) := by
  unfold k0_pay1
  refine congrArg₂ (· + ·) ?_ ?_
  · refine (dotXW_apply _ _ r j).trans (Finset.sum_congr rfl fun e _ => congrArg₂ (· * ·) ?_ ?_)
    · refine (shapeCast_dropUnit_apply ![2048, 768] v26 _ (ix2 r e)).trans (congrArg v26 ?_)
      funext a; match a with | ⟨0, _⟩ => rfl | ⟨1, _⟩ => rfl | ⟨2, _⟩ => rfl
    · exact congrFun (shapeCast_self v29 _) _
  · refine (broadcastTo_1b_ab_apply _ _ r j).trans ?_
    exact congrFun (shapeCast_self v32 _) _

/-- A scratch payload at (r, d): the fused projection's column `off + d`. -/
theorem band_apply (P : FVec Ideal S2048x192 .f32) (off : Nat) (h : S2048x192.Slices ![0, off] S2048x64) (hs : S2048x64.ShapeCasts S2048x64)
    (r : Fin 2048) (d : Fin 64) (hd : off + d.val < 192) :
    shapeCast S2048x64 (truncf .bf16 (extractStridedSlice S2048x64 ![0, off] P h) bitsLt_bf16_f32) hs (ix2 r d)
      = P (ix2 r ⟨off + d.val, hd⟩) := by
  refine (congrFun (shapeCast_self _ hs) _).trans ?_
  refine extractStridedSlice_apply ![0, off] P h (ix2 r d) (ix2 r ⟨off + d.val, hd⟩) fun a => ?_
  match a with
  | ⟨0, _⟩ => show r.val = 0 + r.val; omega
  | ⟨1, _⟩ => rfl

/-- The output payload at (u, r, d): the reciprocal form of the attention of the tile's rows. -/
theorem pay5_apply (v6 : FVec Ideal S512x64 .bf16) (v7 v8 : FVec Ideal S2048x64 .bf16) (u : Fin 1) (r : Fin 512) (d : Fin 64) :
    k0_pay5 (F := Ideal) v6 v7 v8 (ix3 u r d)
      = attnMul (fun k => score (fun e => v6 (ix2 r e)) (fun e => v7 (ix2 k e))) (fun k => v8 (ix2 k d)) := by
  unfold k0_pay5
  refine (shapeCast_addUnit_apply ![512, 64] _ _ (ix3 u r d)).trans ?_
  have hi : (fun a : Fin 2 => (ix3 u r d) a.succ) = ix2 r d :=
    funext fun a => by match a with | ⟨0, _⟩ => rfl | ⟨1, _⟩ => rfl
  refine (congrArg _ hi).trans ?_
  refine (dotPV_apply _ v8 r d).trans ?_
  have hs : (fun j => matmul dot_S512x64_S2048x64_S512x2048_1_1_0_0_n_n none v6 v7 (constant S512x2048 .f32 0x00000000#32) (ix2 r j))
      = fun k => score (fun e => v6 (ix2 r e)) (fun e => v7 (ix2 k e)) := funext fun j => dotQK_apply v6 v7 r j
  unfold attnMul
  rw [← hs]
  exact Finset.sum_congr rfl fun k _ => congrArg (· * v8 (ix2 k d)) (weight_apply _ r k)

end Cert.KernelIdeal.KVal

end
-- ==== Proof.KValue.lean ====
/-
  The value of the fused attention kernel's run at the exact values: its result array as one function of the arguments.

  The region finds the weight window's array holding the three projection weights side by side (columns 0-63 the
  query weights, 64-127 the key weights, 128-191 the value weights) and the bias window's array the three biases in
  one row.  At every point of batch n the activation window's block is batch n of the activations.  So the first tile
  of a batch leaves in the three scratch buffers that batch's query, key and value projections, later tiles leave them
  there (by induction on the point: a later tile's batch is the batch of the point before), and every tile writes back
  the attention of its 512 query rows: rows 512·q .. 512·q+511 of batch n, for the tile q of batch n.  Those blocks
  tile the result array, which therefore ends holding the specification's reciprocal form everywhere.
-/
import proofs.«125336_j15839839388316_2_alg».proof.Proof.KI.Pieces
import proofs.«125336_j15839839388316_2_alg».proof.Proof.KPayload
import Idealize.ShloMosaic.Lib.StableHlo.Run

set_option maxRecDepth 16384

noncomputable section

namespace Cert.KernelIdeal.KVal

open Cert.KernelIdeal Cert.KernelIdeal.Gen Cert.KernelIdeal.Hand Cert.AttnSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arguments, as arrays of extended reals -/

abbrev aX (c : Dev nD) : S4x2048x768.Idx → EReal := m ((c : Thread nD τ).loc main_arg0)
abbrev aWq (c : Dev nD) : S768x64.Idx → EReal := m ((c : Thread nD τ).loc main_arg1)
abbrev aBq (c : Dev nD) : S64.Idx → EReal := m ((c : Thread nD τ).loc main_arg2)
abbrev aWk (c : Dev nD) : S768x64.Idx → EReal := m ((c : Thread nD τ).loc main_arg3)
abbrev aBk (c : Dev nD) : S64.Idx → EReal := m ((c : Thread nD τ).loc main_arg4)
abbrev aWv (c : Dev nD) : S768x64.Idx → EReal := m ((c : Thread nD τ).loc main_arg5)
abbrev aBv (c : Dev nD) : S64.Idx → EReal := m ((c : Thread nD τ).loc main_arg6)

/-! ## The arrays the host operations wrote -/

/-- The three projection weights side by side. -/
abbrev wcat (c : Dev nD) : S768x192.Idx → EReal :=
  concatenate S768x192 1 [⟨S768x64, (aWq m c)⟩, ⟨S768x64, (aWk m c)⟩, ⟨S768x64, (aWv m c)⟩] concatenates_S768x64_S768x64_S768x64_S768x192_d1

/-- The three biases end to end. -/
abbrev bcat (c : Dev nD) : S192.Idx → EReal :=
  concatenate S192 0 [⟨S64, (aBq m c)⟩, ⟨S64, (aBk m c)⟩, ⟨S64, (aBv m c)⟩] concatenates_S64_S64_S64_S192_d0

/-- The weight window's array as the region finds it: the concatenated weights (the narrowing is the identity on
    exact values). -/
theorem V_weights (c : Dev nD) : (V m c main_v1 : S768x192.Idx → EReal) = wcat m c := by
  unfold V; after_results; rfl

/-- The bias window's array as the region finds it: the concatenated biases as one row. -/
theorem V_bias (c : Dev nD) : (V m c main_v3 : S1x192.Idx → EReal) = shapeCast S1x192 (bcat m c) shapeCasts_S192_S1x192 := by
  unfold V; after_results; rfl

/-- Columns 0-63 of the concatenated weights are the query weights. -/
theorem wcat_q (c : Dev nD) (e : Fin 768) (d : Fin 64) :
    wcat m c (ix2 e ⟨0 + d.val, by have := d.isLt; omega⟩) = (aWq m c) (ix2 e d) :=
  concatenate_apply_piece (t := S768x192) (1 : Fin 2) [⟨S768x64, aWq m c⟩, ⟨S768x64, aWk m c⟩, ⟨S768x64, aWv m c⟩] concatenates_S768x64_S768x64_S768x64_S768x192_d1 _ 0 (by show 0 < 3; omega) S768x64 _ rfl rfl 0 rfl
    (ix2 e d) (fun b hb => by match b with | ⟨0, _⟩ => rfl | ⟨1, _⟩ => exact absurd rfl hb) rfl

/-- Columns 64-127 are the key weights. -/
theorem wcat_k (c : Dev nD) (e : Fin 768) (d : Fin 64) :
    wcat m c (ix2 e ⟨64 + d.val, by have := d.isLt; omega⟩) = (aWk m c) (ix2 e d) :=
  concatenate_apply_piece (t := S768x192) (1 : Fin 2) [⟨S768x64, aWq m c⟩, ⟨S768x64, aWk m c⟩, ⟨S768x64, aWv m c⟩] concatenates_S768x64_S768x64_S768x64_S768x192_d1 _ 1 (by show 1 < 3; omega) S768x64 _ rfl rfl 64 rfl
    (ix2 e d) (fun b hb => by match b with | ⟨0, _⟩ => rfl | ⟨1, _⟩ => exact absurd rfl hb) rfl

/-- Columns 128-191 are the value weights. -/
theorem wcat_v (c : Dev nD) (e : Fin 768) (d : Fin 64) :
    wcat m c (ix2 e ⟨128 + d.val, by have := d.isLt; omega⟩) = (aWv m c) (ix2 e d) :=
  concatenate_apply_piece (t := S768x192) (1 : Fin 2) [⟨S768x64, aWq m c⟩, ⟨S768x64, aWk m c⟩, ⟨S768x64, aWv m c⟩] concatenates_S768x64_S768x64_S768x64_S768x192_d1 _ 2 (by show 2 < 3; omega) S768x64 _ rfl rfl 128 rfl
    (ix2 e d) (fun b hb => by match b with | ⟨0, _⟩ => rfl | ⟨1, _⟩ => exact absurd rfl hb) rfl

/-- Entries 0-63 of the concatenated biases are the query bias. -/
theorem bcat_q (c : Dev nD) (d : Fin 64) :
    bcat m c (ix1 ⟨0 + d.val, by have := d.isLt; omega⟩) = (aBq m c) (ix1 d) :=
  concatenate_apply_piece (t := S192) (0 : Fin 1) [⟨S64, aBq m c⟩, ⟨S64, aBk m c⟩, ⟨S64, aBv m c⟩] concatenates_S64_S64_S64_S192_d0 _ 0 (by show 0 < 3; omega) S64 _ rfl rfl 0 rfl
    (ix1 d) (fun b hb => by match b with | ⟨0, _⟩ => exact absurd rfl hb) rfl

/-- Entries 64-127 are the key bias. -/
theorem bcat_k (c : Dev nD) (d : Fin 64) :
    bcat m c (ix1 ⟨64 + d.val, by have := d.isLt; omega⟩) = (aBk m c) (ix1 d) :=
  concatenate_apply_piece (t := S192) (0 : Fin 1) [⟨S64, aBq m c⟩, ⟨S64, aBk m c⟩, ⟨S64, aBv m c⟩] concatenates_S64_S64_S64_S192_d0 _ 1 (by show 1 < 3; omega) S64 _ rfl rfl 64 rfl
    (ix1 d) (fun b hb => by match b with | ⟨0, _⟩ => exact absurd rfl hb) rfl

/-- Entries 128-191 are the value bias. -/
theorem bcat_v (c : Dev nD) (d : Fin 64) :
    bcat m c (ix1 ⟨128 + d.val, by have := d.isLt; omega⟩) = (aBv m c) (ix1 d) :=
  concatenate_apply_piece (t := S192) (0 : Fin 1) [⟨S64, aBq m c⟩, ⟨S64, aBk m c⟩, ⟨S64, aBv m c⟩] concatenates_S64_S64_S64_S192_d0 _ 2 (by show 2 < 3; omega) S64 _ rfl rfl 128 rfl
    (ix1 d) (fun b hb => by match b with | ⟨0, _⟩ => exact absurd rfl hb) rfl

/-! ## The windows' blocks at an index -/

/-- The printed index maps, decided once over the sixteen points: the activation window and the result window move
    with the batch `t / 4`, the result window also with the tile `t % 4`; the other two never move. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ (grid0.coords t 1).val = t.val % 4 :=
  (by decide +kernel : ∀ t : Fin grid0.N, _)

/-- The batch of a point. -/
abbrev batch (t : ℕ) (ht : t < cfg0.N) : Fin 4 := ⟨t / 4, by have : cfg0.N = 16 := N_0; omega⟩

/-- The activation window's block at a point of batch n is batch n of the activations. -/
theorem iblk0_apply (c : Dev nD) (t : Fin cfg0.N) (u : Fin 1) (r : Fin 2048) (e : Fin 768) :
    (iblk m c 0 t : Vec Ideal S1x2048x768 .f32) (ix3 u r e) = (aX m c) (ix3 (batch t.val t.isLt) r e) := by
  unfold iblk
  rw [View.read_apply]
  show V m c main_arg0 (((cfg0.win 0).blk t).view.emb (ix3 u r e)) = _
  rw [V_main_arg0]
  refine congrArg (m ((c : Thread nD τ).loc main_arg0)) (funext fun a => Fin.ext ?_)
  obtain ⟨e0, e1, e2, -⟩ := idx_facts t
  have hu : u.val = 0 := by omega
  match a with
  | ⟨0, _⟩ => show win0_0.index t (0 : Fin 3) * 1 + 1 * u.val = t.val / 4; rw [e0]; omega
  | ⟨1, _⟩ => show win0_0.index t (1 : Fin 3) * 2048 + 1 * r.val = r.val; rw [e1]; omega
  | ⟨2, _⟩ => show win0_0.index t (2 : Fin 3) * 768 + 1 * e.val = e.val; rw [e2]; omega

/-- The weight window's block is the whole concatenated weight array. -/
theorem iblk1_apply (c : Dev nD) (t : Fin cfg0.N) (e : Fin 768) (j : Fin 192) :
    (iblk m c 1 t : Vec Ideal S768x192 .bf16) (ix2 e j) = wcat m c (ix2 e j) := by
  unfold iblk
  rw [View.read_apply]
  show (V m c main_v1 : S768x192.Idx → EReal) (((cfg0.win 1).blk t).view.emb (ix2 e j)) = _
  rw [V_weights]
  refine congrArg (wcat m c) (funext fun a => Fin.ext ?_)
  obtain ⟨-, -, -, e0, e1, -⟩ := idx_facts t
  match a with
  | ⟨0, _⟩ => show win0_1.index t (0 : Fin 2) * 768 + 1 * e.val = e.val; rw [e0]; omega
  | ⟨1, _⟩ => show win0_1.index t (1 : Fin 2) * 192 + 1 * j.val = j.val; rw [e1]; omega

/-- The bias window's block is the whole bias row. -/
theorem iblk2_apply (c : Dev nD) (t : Fin cfg0.N) (u : Fin 1) (j : Fin 192) :
    (iblk m c 2 t : Vec Ideal S1x192 .f32) (ix2 u j) = bcat m c (ix1 j) := by
  unfold iblk
  rw [View.read_apply]
  show (V m c main_v3 : S1x192.Idx → EReal) (((cfg0.win 2).blk t).view.emb (ix2 u j)) = _
  rw [V_bias]
  have hu : u.val = 0 := by omega
  refine (congrArg (shapeCast S1x192 (bcat m c) shapeCasts_S192_S1x192) (?_ : _ = ix2 (0 : Fin 1) j)).trans (shapeCast_a_1a_apply (bcat m c) shapeCasts_S192_S1x192 0 j)
  funext a; apply Fin.ext
  obtain ⟨-, -, -, -, -, e0, e1, -⟩ := idx_facts t
  match a with
  | ⟨0, _⟩ => show win0_2.index t (0 : Fin 2) * 1 + 1 * u.val = 0; rw [e0]; omega
  | ⟨1, _⟩ => show win0_2.index t (1 : Fin 2) * 192 + 1 * j.val = j.val; rw [e1]; omega

/-! ## The scratch buffers hold the batch's projections -/

/-- The fused projection of a point's input blocks, at (r, j). -/
theorem fused_apply (c : Dev nD) (t : Fin cfg0.N) (r : Fin 2048) (j : Fin 192) :
    k0_pay1 (F := Ideal) (iblk m c 0 t) (iblk m c 1 t) (iblk m c 2 t) (ix2 r j)
      = (∑ e : Fin 768, (aX m c) (ix3 (batch t.val t.isLt) r e) * wcat m c (ix2 e j)) + bcat m c (ix1 j) := by
  refine (pay1_apply _ _ _ r j).trans (congrArg₂ (· + ·) (Finset.sum_congr rfl fun e _ => congrArg₂ (· * ·) ?_ ?_) ?_)
  · exact iblk0_apply m c t 0 r e
  · exact iblk1_apply m c t e j
  · exact iblk2_apply m c t 0 j

/-- Band 0 of the fused projection is the query projection of the point's batch. -/
theorem band_q (c : Dev nD) (t : Fin cfg0.N) (r : Fin 2048) (d : Fin 64) :
    k0_pay2 (F := Ideal) (iblk m c 0 t) (iblk m c 1 t) (iblk m c 2 t) (ix2 r d)
      = proj (aX m c) (aWq m c) (aBq m c) (batch t.val t.isLt) r d := by
  unfold k0_pay2
  refine (band_apply _ 0 _ _ r d (by have := d.isLt; omega)).trans ?_
  refine (fused_apply m c t r _).trans ?_
  unfold proj
  refine congrArg₂ (· + ·) (Finset.sum_congr rfl fun e _ => congrArg₂ (· * ·) rfl ?_) ?_
  · exact wcat_q m c e d
  · exact bcat_q m c d

/-- Band 1 of the fused projection is the key projection of the point's batch. -/
theorem band_k (c : Dev nD) (t : Fin cfg0.N) (r : Fin 2048) (d : Fin 64) :
    k0_pay3 (F := Ideal) (iblk m c 0 t) (iblk m c 1 t) (iblk m c 2 t) (ix2 r d)
      = proj (aX m c) (aWk m c) (aBk m c) (batch t.val t.isLt) r d := by
  unfold k0_pay3
  refine (band_apply _ 64 _ _ r d (by have := d.isLt; omega)).trans ?_
  refine (fused_apply m c t r _).trans ?_
  unfold proj
  refine congrArg₂ (· + ·) (Finset.sum_congr rfl fun e _ => congrArg₂ (· * ·) rfl ?_) ?_
  · exact wcat_k m c e d
  · exact bcat_k m c d

/-- Band 2 of the fused projection is the value projection of the point's batch. -/
theorem band_v (c : Dev nD) (t : Fin cfg0.N) (r : Fin 2048) (d : Fin 64) :
    k0_pay4 (F := Ideal) (iblk m c 0 t) (iblk m c 1 t) (iblk m c 2 t) (ix2 r d)
      = proj (aX m c) (aWv m c) (aBv m c) (batch t.val t.isLt) r d := by
  unfold k0_pay4
  refine (band_apply _ 128 _ _ r d (by have := d.isLt; omega)).trans ?_
  refine (fused_apply m c t r _).trans ?_
  unfold proj
  refine congrArg₂ (· + ·) (Finset.sum_congr rfl fun e _ => congrArg₂ (· * ·) rfl ?_) ?_
  · exact wcat_v m c e d
  · exact bcat_v m c d

/-- A first tile's four buffers, as the body's arithmetic over the point's input blocks. -/
theorem outA_eq (c : Dev nD) (t : Fin cfg0.N) (h : t.val % 4 = 0) :
    outA m c t h = (k0_pay5 (qtile (grid0.coords t) (k0_pay2 (iblk m c 0 t) (iblk m c 1 t) (iblk m c 2 t))) (k0_pay3 (iblk m c 0 t) (iblk m c 1 t) (iblk m c 2 t)) (k0_pay4 (iblk m c 0 t) (iblk m c 1 t) (iblk m c 2 t)),
      k0_pay2 (iblk m c 0 t) (iblk m c 1 t) (iblk m c 2 t), k0_pay3 (iblk m c 0 t) (iblk m c 1 t) (iblk m c 2 t), k0_pay4 (iblk m c 0 t) (iblk m c 1 t) (iblk m c 2 t)) := by
  unfold outA
  rw [out0_A_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t), sout0_A_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (iblk m c 0 t) (iblk m c 1 t) (iblk m c 2 t)]

/-- A later tile's four buffers from what the point before left. -/
theorem outB_eq (c : Dev nD) (t : Fin cfg0.N) (h : ¬t.val % 4 = 0)
    (p : Vec Ideal S1x512x64 .f32 × Vec Ideal S2048x64 .bf16 × Vec Ideal S2048x64 .bf16 × Vec Ideal S2048x64 .bf16) :
    outB c t h p = (k0_pay5 (qtile (grid0.coords t) p.2.1) p.2.2.1 p.2.2.2, p.2.1, p.2.2.1, p.2.2.2) := by
  unfold outB
  rw [out0_B_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) p.2.1 p.2.2.1 p.2.2.2]

/-- The scratch buffers after point `n` hold the query, key and value projections of the point's batch. -/
theorem scratch_eq (c : Dev nD) : ∀ (n : ℕ) (hn : n < cfg0.N) (r : Fin 2048) (d : Fin 64),
    (outsAt0 m c n hn).2.1 (ix2 r d) = proj (aX m c) (aWq m c) (aBq m c) (batch n hn) r d
    ∧ (outsAt0 m c n hn).2.2.1 (ix2 r d) = proj (aX m c) (aWk m c) (aBk m c) (batch n hn) r d
    ∧ (outsAt0 m c n hn).2.2.2 (ix2 r d) = proj (aX m c) (aWv m c) (aBv m c) (batch n hn) r d := by
  intro n
  induction n with
  | zero =>
    intro hn r d
    have hA : outsAt0 m c 0 hn = outA m c ⟨0, hn⟩ (Nat.zero_mod _) := outsAt0_A m c ⟨0, hn⟩ (Nat.zero_mod _)
    rw [hA, outA_eq]
    exact ⟨band_q m c ⟨0, hn⟩ r d, band_k m c ⟨0, hn⟩ r d, band_v m c ⟨0, hn⟩ r d⟩
  | succ n ih =>
    intro hn r d
    by_cases h0 : (n + 1) % 4 = 0
    · have hA : outsAt0 m c (n + 1) hn = outA m c ⟨n + 1, hn⟩ h0 := outsAt0_A m c ⟨n + 1, hn⟩ h0
      rw [hA, outA_eq]
      exact ⟨band_q m c ⟨n + 1, hn⟩ r d, band_k m c ⟨n + 1, hn⟩ r d, band_v m c ⟨n + 1, hn⟩ r d⟩
    · have hB : outsAt0 m c (n + 1) hn = outB c ⟨n + 1, hn⟩ h0 (outsAt0 m c n (Nat.lt_of_succ_lt hn)) :=
        outsAt0_B m c ⟨n + 1, hn⟩ h0
      rw [hB, outB_eq]
      have hb : batch (n + 1) hn = batch n (Nat.lt_of_succ_lt hn) := Fin.ext (by show (n + 1) / 4 = n / 4; omega)
      rw [hb]
      exact ih (Nat.lt_of_succ_lt hn) r d

/-- What every point leaves in the output buffer: the attention payload of its query tile read from the first
    scratch, against the other two. -/
theorem out_eq (c : Dev nD) (t : Fin cfg0.N) :
    (outsAt0 m c t.val t.isLt).1
      = k0_pay5 (qtile (grid0.coords t) (outsAt0 m c t.val t.isLt).2.1) (outsAt0 m c t.val t.isLt).2.2.1 (outsAt0 m c t.val t.isLt).2.2.2 := by
  by_cases h0 : t.val % 4 = 0
  · rw [outsAt0_A m c t h0, outA_eq]
  · rw [outsAt0_B m c t h0, outB_eq]

/-- The tile's query rows, read at (r, e): row `512 · q + r` of the array, for the tile `q` of the point. -/
theorem qtile_apply (i : grid0.Coords) (q : Vec Ideal S2048x64 .bf16) (r : Fin 512) (e : Fin 64) :
    qtile i q (ix2 r e) = q (ix2 ⟨512 * (i 1).val + r.val, by have : (i 1).val < 4 := (i 1).isLt; have := r.isLt; omega⟩ e) := by
  show q ((Rect.unit (s := S2048x64) (k0_off1 i) S512x64.size (k0_off1_inb i)).idx (ix2 r e)) = _
  refine congrArg q (funext fun a => Fin.ext ?_)
  have h0 : k0_off1 i 0 = 512 * (i 1).val := by rw [k0_off1_eq i]; rfl
  have h1 : k0_off1 i 1 = 0 := by rw [k0_off1_eq i]; rfl
  match a with
  | ⟨0, _⟩ => show k0_off1 i 0 + 1 * r.val = 512 * (i 1).val + r.val; rw [h0]; omega
  | ⟨1, _⟩ => show k0_off1 i 1 + 1 * e.val = e.val; rw [h1]; omega

/-! ## The result array -/

/-- The result: the specification's reciprocal form of the attention, at every index. -/
abbrev result (c : Dev nD) : Buf (Elt Ideal) ((c : Thread nD τ).loc main_v4) :=
  fun i => outMul (aX m c) (aWq m c) (aBq m c) (aWk m c) (aBk m c) (aWv m c) (aBv m c) (i 0) (i 1) (i 2)

/-- What point `t` writes back is block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  funext y
  obtain ⟨u, r, d, rfl⟩ : ∃ (u : Fin 1) (r : Fin 512) (d : Fin 64), y = ix3 u r d := ⟨y 0, y 1, y 2, eq_ix3 y⟩
  obtain ⟨-, -, -, -, -, -, -, e0, e1, e2, ec⟩ := idx_facts t
  have hN : cfg0.N = 16 := N_0
  have hu : u.val = 0 := by omega
  have hq : 512 * (grid0.coords t 1).val + r.val < 2048 := by have := t.isLt; have := r.isLt; rw [ec]; omega
  -- the right side: the result at the block's element
  have hR : ((cfg0.win 3).blk t).view.read (Elt Ideal) (result m c) (ix3 u r d)
      = outMul (aX m c) (aWq m c) (aBq m c) (aWk m c) (aBk m c) (aWv m c) (aBv m c) (batch t.val t.isLt) ⟨512 * (grid0.coords t 1).val + r.val, hq⟩ d := by
    rw [View.read_apply]
    show outMul _ _ _ _ _ _ _ _ _ _ = _
    have c0 : (((cfg0.win 3).blk t).view.emb (ix3 u r d)) 0 = batch t.val t.isLt := Fin.ext (by
      show win0_3.index t (0 : Fin 3) * 1 + 1 * u.val = t.val / 4; rw [e0]; omega)
    have c1 : (((cfg0.win 3).blk t).view.emb (ix3 u r d)) 1 = ⟨512 * (grid0.coords t 1).val + r.val, hq⟩ := Fin.ext (by
      show win0_3.index t (1 : Fin 3) * 512 + 1 * r.val = 512 * (grid0.coords t 1).val + r.val; rw [e1, ec]; omega)
    have c2 : (((cfg0.win 3).blk t).view.emb (ix3 u r d)) 2 = d := Fin.ext (by
      show win0_3.index t (2 : Fin 3) * 64 + 1 * d.val = d.val; rw [e2]; omega)
    rw [c0, c1, c2]
    rfl
  refine Eq.trans ?_ hR.symm
  show k0_pay5 _ _ _ (ix3 u r d) = _
  refine (pay5_apply _ _ _ u r d).trans ?_
  unfold outMul
  have hs := scratch_eq m c t.val t.isLt
  congr 1
  · funext k
    congr 1
    · funext e; exact (qtile_apply _ _ r e).trans (hs _ e).1
    · funext e; exact (hs k e).2.1
  · funext k; exact (hs k d).2.2

/-- An index of the result array is in point `t`'s block iff each coordinate is in the block's range on its axis. -/
theorem mem_blk (t : Fin cfg0.N) (i : S4x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v4).slice (win0_3.rect t)).set ↔ _
  rw [View.set_slice_whole, Rect.mem_set_unit]
  exact Iff.rfl

/-- Every index of the result array is in the block of the point of its batch and tile. -/
theorem covered (i : S4x2048x64.Idx) : ∃ t : Fin cfg0.N, (cfg0.win 3).flush t = true ∧ i ∈ ((cfg0.win 3).blk t).view.set := by
  have hN : cfg0.N = 16 := N_0
  have h0 : (i 0).val < 4 := (i 0).isLt
  have h1 : (i 1).val < 2048 := (i 1).isLt
  have h2 : (i 2).val < 64 := (i 2).isLt
  refine ⟨⟨4 * (i 0).val + (i 1).val / 512, by omega⟩, flush0_3 _, ?_⟩
  rw [mem_blk]
  obtain ⟨-, -, -, -, -, -, -, e0, e1, e2, -⟩ := idx_facts ⟨4 * (i 0).val + (i 1).val / 512, by omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 512 ≤ (i 1).val ∧ (i 1).val < win0_3.index _ (1 : Fin 3) * 512 + 512; rw [e1]; dsimp only; omega
  | ⟨2, _⟩ => show win0_3.index _ (2 : Fin 3) * 64 ≤ (i 2).val ∧ (i 2).val < win0_3.index _ (2 : Fin 3) * 64 + 64; rw [e2]; omega

/-- The result array after the run. -/
theorem final (c : Dev nD) : (dats m 0 c).arrAt 3 cfg0.N = result m c :=
  (dats m 0 c).arrAt_eq_of_cover 3 (result m c) (fun t _ => flushed_eq m c t) covered

/-- The run, read: the result array at the specification's reciprocal form, the seven arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KVal

end
-- ==== Proof.RefValue.lean ====
/-
  The reference program read stage by stage at an index, against the specification.

  Its three projections are the specification's; its scores their inner products; its row maximum, a fold of the
  maximum from minus infinity over the key axis, is the supremum of the row (and taking the maximum with minus infinity
  once more changes nothing); its exponentials are the row shifted by that supremum and exponentiated; its row sum,
  started from zero, is the sum of the exponentials; its weights are the exponentials DIVIDED by the row sum; and its
  result is the weights applied to the value projection: the specification's division form.
-/
import proofs.«125336_j15839839388316_2_alg».proof.Proof.Gen.ReferenceIdeal.Read
import proofs.«125336_j15839839388316_2_alg».proof.Proof.AttnSpec
import proofs.«125336_j15839839388316_2_alg».proof.Proof.LibMaxReduce

noncomputable section

namespace Cert.ReferenceIdeal.RefValue

open Cert.ReferenceIdeal Cert.ReferenceIdeal.Gen Cert.ReferenceIdeal.Read Cert.AttnSpec
open Idealize.ShloMosaic Idealize.ShloMosaic.TcCoe Idealize.ShloMosaic.ValueIdx Idealize.SL.Sem Idealize.ShloMosaic.StableHlo

/-- The reference's projection stage at an index is the specification's projection. -/
theorem q_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (i : S4x2048x64.Idx) :
    val_main_v3 (F := Ideal) x0 x1 x2 i = proj x0 x1 x2 (i 0) (i 1) (i 2) := by
  rw [val_main_v3_apply, val_main_v0_apply, val_main_v2_apply, val_main_v1_apply]
  have e1 : ∀ k, lidx_main_v0 i k = ix3 (i 0) (i 1) k := fun k => funext fun a => by match a with | ⟨0, _⟩ => rfl | ⟨1, _⟩ => rfl | ⟨2, _⟩ => rfl
  have e2 : ∀ k, ridx_main_v0 i k = ix2 k (i 2) := fun k => funext fun a => by match a with | ⟨0, _⟩ => rfl | ⟨1, _⟩ => rfl
  have e3 : idx_main_v1 (idx_main_v2 i) = ix1 (i 2) := funext fun a => by match a with | ⟨0, _⟩ => rfl
  simp only [e1, e2, e3]
  rfl

/-- The reference's projection stage at an index is the specification's projection. -/
theorem k_apply (x0 : (⟨S4x2048x768, .f32⟩ : BufTy).Contents (Elt Ideal)) (x3 : (⟨S768x64, .f32⟩ : BufTy).Contents (Elt Ideal)) (x4 : (⟨S64, .f32⟩ : BufTy).Contents (Elt Ideal)) (i : S4x2048x64.Idx) :
    val_main_v7 (F := Ideal) x0 x3 x4 i = proj x0 x3 x4 (i 0) (i 1) (i 2) := by
  rw [val_main_v7_apply, val_main_v4_apply, val_main_v6_apply, val_main_v5_apply]
  have e1 : ∀ k, lidx_main_v4 i k = ix3 (i 0) (i 1) k := fun k => funext fun a => by match a with | ⟨0, _⟩ => rfl | ⟨1, _⟩ => rfl | ⟨2, _⟩ => rfl
  have e2 : ∀ k, ridx_main_v4 i k = ix2 k (i 2) := fun k => funext fun a => by match a with | ⟨0, _⟩ => rfl | ⟨1, _⟩ => rfl
  have e3 : idx_main_v5 (idx_main_v6 i) = ix1 (i 2) := funext fun a => by match a with | ⟨0, _⟩ => rfl
  simp only [e1, e2, e3]
  rfl

/-- The reference's projection stage at an index is the specification's projection. -/
theorem v_apply (x0 : (⟨S4x2048x768, .f32⟩ : BufTy).Contents (Elt Ideal)) (x5 : (⟨S768x64, .f32⟩ : BufTy).Contents (Elt Ideal)) (x6 : (⟨S64, .f32⟩ : BufTy).Contents (Elt Ideal)) (i : S4x2048x64.Idx) :
    val_main_v11 (F := Ideal) x0 x5 x6 i = proj x0 x5 x6 (i 0) (i 1) (i 2) := by
  rw [val_main_v11_apply, val_main_v8_apply, val_main_v10_apply, val_main_v9_apply]
  have e1 : ∀ k, lidx_main_v8 i k = ix3 (i 0) (i 1) k := fun k => funext fun a => by match a with | ⟨0, _⟩ => rfl | ⟨1, _⟩ => rfl | ⟨2, _⟩ => rfl
  have e2 : ∀ k, ridx_main_v8 i k = ix2 k (i 2) := fun k => funext fun a => by match a with | ⟨0, _⟩ => rfl | ⟨1, _⟩ => rfl
  have e3 : idx_main_v9 (idx_main_v10 i) = ix1 (i 2) := funext fun a => by match a with | ⟨0, _⟩ => rfl
  simp only [e1, e2, e3]
  rfl

/-- The row of scores of query row `r` of batch `n`. -/
abbrev srow (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (n : Fin 4) (r : Fin 2048) : Fin 2048 → EReal :=
  fun k => score (proj x0 x1 x2 n r) (proj x0 x3 x4 n k)

/-- The score stage at an index: the inner product of the query and key projections. -/
theorem s_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (i : S4x2048x2048.Idx) :
    val_main_v12 (F := Ideal) x0 x1 x2 x3 x4 i = srow x0 x1 x2 x3 x4 (i 0) (i 1) (i 2) := by
  rw [val_main_v12_apply]
  unfold srow score
  refine Finset.sum_congr rfl fun d _ => ?_
  rw [q_apply, k_apply]
  rfl

/-- The row maximum: the supremum of the row of scores. -/
theorem mx_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (j : S4x2048.Idx) :
    val_main_v13 (F := Ideal) x0 x1 x2 x3 x4 j = ⨆ k, srow x0 x1 x2 x3 x4 (j 0) (j 1) k := by
  have hR : S4x2048x2048.Reduces [2] S4x2048 := by decide
  unfold val_main_v13
  rw [Host.reduce_eq_fold_single FloatOps.maximumf _ _ reducesTo_S4x2048x2048_S4x2048_d2 hR h_S_]
  show (Finset.univ : Finset (Fin 2048)).fold max (Ideal.ofBits .f32 0xFF800000#32) _ = _
  rw [Cert.LibMaxReduce.ofBits_neg_inf]
  refine (Cert.LibMaxReduce.fold_max_bot _).trans (iSup_congr fun k => ?_)
  have e : hR.lift j k = ix3 (n0 := 4) (n1 := 2048) (n2 := 2048) (j 0) (j 1) k :=
    funext fun a => Fin.ext (by match a with | ⟨0, _⟩ => rfl | ⟨1, _⟩ => rfl | ⟨2, _⟩ => rfl)
  show val_main_v12 (F := Ideal) x0 x1 x2 x3 x4 (hR.lift j k) = _
  rw [e]
  exact s_apply x0 x1 x2 x3 x4 _

/-- The exponential stage at an index: the row shifted by its supremum and exponentiated. -/
theorem e_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (i : S4x2048x2048.Idx) :
    val_main_v19 (F := Ideal) x0 x1 x2 x3 x4 i = expo (srow x0 x1 x2 x3 x4 (i 0) (i 1)) (i 2) := by
  rw [val_main_v19_apply, val_main_v18_apply, val_main_v17_apply, val_main_v16_apply, val_main_v15_apply,
    val_main_v14_apply, val_main_cst_0_apply, mx_apply, s_apply]
  show Ideal.exp (_ - max (Ideal.ofBits .f32 0xFF800000#32) _) = _
  rw [Cert.LibMaxReduce.ofBits_neg_inf, max_eq_right bot_le]
  rfl

/-- The row sum: the sum of the row's exponentials. -/
theorem l_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (j : S4x2048.Idx) :
    val_main_v20 (F := Ideal) x0 x1 x2 x3 x4 j = denom (srow x0 x1 x2 x3 x4 (j 0) (j 1)) := by
  rw [val_main_v20_apply]
  show Ideal.ofBits .f32 0x00000000#32 + _ = _
  rw [Ideal.ofBits_zero_f32, zero_add]
  unfold denom
  refine Finset.sum_congr rfl fun k _ => ?_
  rw [e_apply]
  rfl

/-- The weight stage at an index: the exponential divided by the row sum. -/
theorem w_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (i : S4x2048x2048.Idx) :
    val_main_v23 (F := Ideal) x0 x1 x2 x3 x4 i
      = Ideal.div (expo (srow x0 x1 x2 x3 x4 (i 0) (i 1)) (i 2)) (denom (srow x0 x1 x2 x3 x4 (i 0) (i 1))) := by
  rw [val_main_v23_apply, e_apply, val_main_v22_apply, val_main_v21_apply, l_apply]
  rfl

/-- The reference's result at an index is the specification's division form. -/
theorem ref_apply (x0 : (⟨S4x2048x768, .f32⟩ : BufTy).Contents (Elt Ideal)) (x1 : (⟨S768x64, .f32⟩ : BufTy).Contents (Elt Ideal)) (x2 : (⟨S64, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (i : S4x2048x64.Idx) :
    val_main_v24 (F := Ideal) x0 x1 x2 x3 x4 x5 x6 i = outDiv x0 x1 x2 x3 x4 x5 x6 (i 0) (i 1) (i 2) := by
  rw [val_main_v24_apply]
  unfold outDiv attnDiv
  refine Finset.sum_congr rfl fun k _ => ?_
  rw [w_apply, v_apply]
  rfl

end Cert.ReferenceIdeal.RefValue

end
-- ==== Proof.Finite.lean ====
/-
  What the precondition gives.  The precondition is the conjunction, over the seven argument arrays, of "every entry's
  absolute value is below +infinity".  Read at the exact values, an extended real whose absolute value is below
  +infinity is a real number; so under the precondition every entry of every argument is a real number.
-/
import proofs.«125336_j15839839388316_2_alg».proof.Pre_finite_inputs
import proofs.«125336_j15839839388316_2_alg».proof.Proof.Gen.Pre_finite_inputs
import proofs.«125336_j15839839388316_2_alg».proof.Proof.AttnSpec
import Idealize.ShloMosaic.Lib.ReduceAll
import Idealize.ShloMosaic.Lib.Affine
import Idealize.ShloMosaic.Lib.ValueIdx

noncomputable section

namespace Cert.FiniteInputs

open Idealize.ShloMosaic Cert.Pre_finite_inputs Cert.Pre_finite_inputs.Facts Cert.AttnSpec

/-- The scalar shape has one index. -/
instance : Subsingleton S_.Idx := ⟨fun a b => funext fun d => d.elim0⟩

/-- One conjunct: if "all entries of |x| are below +infinity" holds then every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) (i : s.Idx) : IsReal (x i) :=
  Cert.LibERealFinite.real_of_abs_lt (x i) (Host.reduce_andi_all _ _ hr hu ValueIdx.ix0 e i)

/-- Under the precondition every entry of every argument is a real number. -/
theorem inputs_real (a0 : FVec Ideal S4x2048x768 .f32) (a1 : FVec Ideal S768x64 .f32) (a2 : FVec Ideal S64 .f32)
    (a3 : FVec Ideal S768x64 .f32) (a4 : FVec Ideal S64 .f32) (a5 : FVec Ideal S768x64 .f32) (a6 : FVec Ideal S64 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h33 := congrFun h ValueIdx.ix0
  obtain ⟨h28, h32⟩ := IntOp.andi_eq_one.mp h33
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨all_real a0 _ _ _ h3, all_real a1 _ _ _ h7, all_real a2 _ _ _ h12, all_real a3 _ _ _ h17,
    all_real a4 _ _ _ h22, all_real a5 _ _ _ h27, all_real a6 _ _ _ h32⟩

end Cert.FiniteInputs

end
-- ==== Proof.lean ====
/-
  Fused single-head self-attention against its reference, on the extended reals.

  The kernel projects each batch's activations once, with the three projection weights fused side by side into one
  768 x 192 matrix product, keeps the batch's queries, keys and values in scratch across the batch's four query tiles,
  and for each tile of 512 query rows forms the scores against all 2048 keys, shifts each row by its maximum,
  exponentiates, multiplies by the reciprocal of the row's sum and applies the weights to the values.  The reference
  computes the three projections separately, the same shifted exponentials, DIVIDES them by the row's sum and applies
  them to the values.  A change of float format is the identity at the exact values, and a band of the fused product
  is the product with that band's weights, so the two differ only in x · (1 / l) against x / l.  These agree when the
  row's sum l is not zero; under the precondition every input is a real number, hence every score is, hence every
  shifted exponential is a positive real and l is a positive real.

  The three frames: the kernel program (at the word level and at the exact values) runs its four host operations and
  then its region over the 4 x 4 grid, the invariant carrying the three scratch buffers from point to point; the
  reference is a straight line of host operations.  No operation of the kernel is rewritten by the idealisation, so
  there is nothing to preserve beyond the program's own text.
-/
import proofs.«125336_j15839839388316_2_alg».proof.Defs
import proofs.«125336_j15839839388316_2_alg».proof.Proof.Gen.Kernel
import proofs.«125336_j15839839388316_2_alg».proof.Proof.Gen.KernelIdeal
import proofs.«125336_j15839839388316_2_alg».proof.Proof.Gen.ReferenceIdeal
import proofs.«125336_j15839839388316_2_alg».proof.Proof.Gen.ReferenceIdeal.Run
import proofs.«125336_j15839839388316_2_alg».proof.Proof.Gen.ReferenceIdeal.Read
import proofs.«125336_j15839839388316_2_alg».proof.Proof.Gen.Pre_finite_inputs
import proofs.«125336_j15839839388316_2_alg».proof.Proof.KB.Frame
import proofs.«125336_j15839839388316_2_alg».proof.Proof.KValue
import proofs.«125336_j15839839388316_2_alg».proof.Proof.RefValue
import proofs.«125336_j15839839388316_2_alg».proof.Proof.Finite
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does the same program read at the exact values. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- At the exact values the kernel's result array ends at the reciprocal form of the attention of its arguments and
    the reference's at the division form of the same arguments; under the precondition every argument entry is a real
    number, and then the two forms are one function. -/
theorem algebraic : Cert.algebraic_KernelIdeal_ReferenceIdeal := by
  intro m ρ m' ρ' hpre hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r1, r2, r3, r4, -, -⟩ := Cert.FiniteInputs.inputs_real _ _ _ _ _ _ _ (hpre c)
  rw [Cert.ReferenceIdeal.Read.val_main_v24_eq, a0, a1, a2, a3, a4, a5, a6]
  funext i
  rw [Cert.ReferenceIdeal.RefValue.ref_apply]
  exact (Cert.AttnSpec.outMul_eq_outDiv r0 r1 r2 r3 r4 (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
